-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S1600000 .f32) (main_arg2 : FVec F S128x128 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S1600000x1 : Shape := ⟨2, ![1600000, 1]⟩
abbrev S_ : Shape := ⟨0, ![]⟩
abbrev S1600000x128 : Shape := ⟨2, ![1600000, 128]⟩
abbrev S10000x128 : Shape := ⟨2, ![10000, 128]⟩

abbrev nBuf : Space → Nat
  | .hbm => 23
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S1600000, .i32⟩
  | .hbm, ⟨4, _⟩ => ⟨S1600000, .i32⟩
  | .hbm, ⟨5, _⟩ => ⟨S1600000x1, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S1600000x128, .f32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S128x128, .f32⟩
  | .hbm, ⟨22, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v12) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S1600000, .i32⟩
  | .hbm, ⟨4, _⟩ => ⟨S1600000, .i32⟩
  | .hbm, ⟨5, _⟩ => ⟨S1600000x1, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S1600000x128, .f32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S128x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.Spec.lean ====
/-
  The function both programs compute: a rectified matrix product.

  With A an array of 100000 rows of 128 entries and B a 128 × 128 matrix, the result at row r and column j is
  max(Σ_k A(r,k) · B(k,j), 0) on the extended reals. The sum runs over the 128 positions of the contracted axis;
  nothing here needs the entries to be finite, because the two programs form the same products and add them
  over the same finite index set.
-/
import Idealize.ShloMosaic.PureOps.Ideal
import Idealize.ShloMosaic.Lib.ValueIdx

noncomputable section

open scoped BigOperators

namespace Cert.LinRelu

open Idealize.ShloMosaic Idealize.ShloMosaic.ValueIdx

/-- The rectified inner product of a row `a` and a column `b` of length 128. -/
def dotRelu (a b : Fin 128 → EReal) : EReal := max (∑ k : Fin 128, a k * b k) 0

/-- Two rows and two columns that agree position by position have the same rectified inner product. -/
theorem dotRelu_congr {a a' b b' : Fin 128 → EReal} (ha : ∀ k, a k = a' k) (hb : ∀ k, b k = b' k) :
    dotRelu a b = dotRelu a' b' := by
  rw [show a = a' from funext ha, show b = b' from funext hb]

/-- The rectified product of a 100000 × 128 array with a 128 × 128 matrix, entry by entry. -/
def linRelu (A : FVec Ideal ⟨2, ![100000, 128]⟩ .f32) (B : FVec Ideal ⟨2, ![128, 128]⟩ .f32) :
    FVec Ideal ⟨2, ![100000, 128]⟩ .f32 :=
  fun i => dotRelu (fun k => A (ix2 (⟨(i 0).val, idx2_lt0 i⟩ : Fin 100000) k))
    (fun k => B (ix2 k (⟨(i 1).val, idx2_lt1 i⟩ : Fin 128)))

/-- Read at the entry named by its coordinates. -/
theorem linRelu_apply (A : FVec Ideal ⟨2, ![100000, 128]⟩ .f32) (B : FVec Ideal ⟨2, ![128, 128]⟩ .f32)
    (r : Fin 100000) (j : Fin 128) :
    linRelu A B (ix2 r j) = dotRelu (fun k => A (ix2 r k)) (fun k => B (ix2 k j)) := rfl

end Cert.LinRelu

end
-- ==== Proof.Body.lean ====
/-
  What one grid point's body stores, entry by entry.

  The body loads a block X of 10000 rows of the left operand and the whole 128 × 128 right operand Y, rounds both
  to a narrower format (the identity on the extended reals), multiplies them into a zero accumulator and takes the
  maximum with zero. At row p and column q of the block the stored value is therefore max(Σ_k X(p,k) · Y(k,q), 0).
-/
import proofs.«148129_j10625749090655_1_alg».proof.Proof.Gen.KernelIdeal.Skeleton
import proofs.«148129_j10625749090655_1_alg».proof.Proof.LibMatmulNN
import proofs.«148129_j10625749090655_1_alg».proof.Proof.Spec
import Idealize.ShloMosaic.Lib.Pipeline.Value

noncomputable section

open scoped BigOperators

namespace Cert.LinRelu

open Idealize.ShloMosaic Idealize.ShloMosaic.ValueIdx Cert.KernelIdeal Cert.KernelIdeal.Gen

/-- The stored block at `(p, q)`: the rectified inner product of row `p` of the loaded block with column `q`
    of the loaded matrix. -/
theorem pay_apply (x0 : Vec Ideal S10000x128 .f32) (x1 : Vec Ideal S128x128 .f32) (p : Fin 10000) (q : Fin 128) :
    k0_pay1 (F := Ideal) x0 x1 (ix2 p q) = dotRelu (fun k => x0 (ix2 p k)) (fun k => x1 (ix2 k q)) := by
  unfold k0_pay1 dotRelu
  show max (matmul dot_S10000x128_S128x128_S10000x128_1_0_0_1_n_n none _ _ _ (ix2 p q)) _ = _
  refine congrArg₂ max ?_ Ideal.ofBits_zero_f32
  refine (LibMatmulNN.matmul_zero_apply' dot_S10000x128_S128x128_S10000x128_1_0_0_1_n_n rfl rfl rfl rfl rfl rfl
    none _ _ p q).trans ?_
  refine Finset.sum_congr rfl fun k _ => ?_
  rw [truncf_apply, truncf_apply, shapeCast_self, shapeCast_self]

end Cert.LinRelu

end
-- ==== Proof.KernelSide.lean ====
/-
  The kernel's result array as one function of the two arrays its launch finds.

  The launch walks ten grid points. At point t the left operand's window holds rows 10000·b … 10000·b + 9999 of the
  aggregated features AH, where b is the block index the output's window has at t, the right operand's window holds the
  whole transposed weight matrix Wt, and the body stores max(X · Y, 0) of the two into the output's block, which is
  written back to the same rows of the result. An entry (p, q) of that block depends on row p of the left block and on
  column q of Wt only, so it is the entry (10000·b + p, q) of the rectified product of the whole arrays. The ten blocks
  tile the 100000 rows (row r lies in block r / 10000), so the result array ends holding the rectified product of AH
  and Wt everywhere.
-/
import proofs.«148129_j10625749090655_1_alg».proof.Proof.Gen.KernelIdeal.Value
import proofs.«148129_j10625749090655_1_alg».proof.Proof.Body
import Idealize.ShloMosaic.Lib.Pipeline.Value

noncomputable section

open scoped BigOperators

namespace Cert.LinRelu

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-- How the three windows move over the grid: the left operand's block index follows the output's along the rows
    and stays at column block 0; the right operand's never moves; the output's stays at column block 0 and its row
    block index is at most 9. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem every_row_block : ∀ b : Fin 10, ∃ t : Fin cfg0.N, win0_2.index t = ![b.val, 0] :=
  (by decide +kernel : ∀ b : Fin 10, ∃ t : Fin grid0.N, win0_2.index t = ![b.val, 0])

/-- One grid point, for ANY contents `A` of the left array and `B` of the right one: the body applied to the two
    windows' blocks at point `t` is block `t` of the rectified product of `A` and `B`. The left window's block at `t` is
    rows 10000·b … 10000·b + 9999 of `A` (b the output's row block index at `t`), the right window's block is all of
    `B`, and the entry `(p, q)` of the stored block reads row `p` of the former and column `q` of the latter. -/
theorem block_eq (A : S100000x128.Idx → Elt Ideal .f32) (B : S128x128.Idx → Elt Ideal .f32) (t : Fin cfg0.N) :
    (cfg0.win 2).cut (grid0.coords t)
        (k0_pay1 (F := Ideal) (((cfg0.win 0).blk t).view.read (Elt Ideal) A) (((cfg0.win 1).blk t).view.read (Elt Ideal) B))
      = ((cfg0.win 2).blk t).view.read (Elt Ideal) (linRelu A B) := by
  obtain ⟨e0, e1, e2, e3, e4, e5⟩ := block_indices t
  refine funext fun (j : S10000x128.Idx) => ?_
  obtain ⟨p, q, rfl⟩ : ∃ (p : Fin 10000) (q : Fin 128), j = ix2 p q := ⟨j 0, j 1, eq_ix2 j⟩
  show k0_pay1 (F := Ideal) (((cfg0.win 0).blk t).view.read (Elt Ideal) A) (((cfg0.win 1).blk t).view.read (Elt Ideal) B) (ix2 p q)
    = linRelu A B (((cfg0.win 2).blk t).view.emb (ix2 p q))
  refine (pay_apply _ _ p q).trans ?_
  have hb : win0_2.index t (0 : Fin 2) * 10000 + p.val < 100000 := by have := p.isLt; omega
  have he : ((cfg0.win 2).blk t).view.emb (ix2 p q)
      = ix2 (⟨win0_2.index t (0 : Fin 2) * 10000 + p.val, hb⟩ : Fin 100000) q := by
    funext a
    apply Fin.ext
    match a with
    | ⟨0, _⟩ => show win0_2.index t (0 : Fin 2) * 10000 + 1 * p.val = win0_2.index t (0 : Fin 2) * 10000 + p.val; omega
    | ⟨1, _⟩ => show win0_2.index t (1 : Fin 2) * 128 + 1 * q.val = q.val; rw [e4]; omega
  rw [he, linRelu_apply]
  refine dotRelu_congr (fun k => ?_) (fun k => ?_)
  · show A (((cfg0.win 0).blk t).view.emb (ix2 p k)) = A (ix2 (⟨win0_2.index t (0 : Fin 2) * 10000 + p.val, hb⟩ : Fin 100000) k)
    refine congrArg A ?_
    funext a
    apply Fin.ext
    match a with
    | ⟨0, _⟩ => show win0_0.index t (0 : Fin 2) * 10000 + 1 * p.val = win0_2.index t (0 : Fin 2) * 10000 + p.val; rw [e0]; omega
    | ⟨1, _⟩ => show win0_0.index t (1 : Fin 2) * 128 + 1 * k.val = k.val; rw [e1]; omega
  · show B (((cfg0.win 1).blk t).view.emb (ix2 k q)) = B (ix2 k q)
    refine congrArg B ?_
    funext a
    apply Fin.ext
    match a with
    | ⟨0, _⟩ => show win0_1.index t (0 : Fin 2) * 128 + 1 * k.val = k.val; rw [e2]; omega
    | ⟨1, _⟩ => show win0_1.index t (1 : Fin 2) * 128 + 1 * q.val = q.val; rw [e3]; omega

/-- What point `t` writes back is block `t` of the rectified product of the two arrays the launch finds. -/
theorem flushed_eq (c : Dev nD) (t : Fin cfg0.N) :
    (dats m 0 c).flushed 2 t
      = ((cfg0.win 2).blk t).view.read (Elt Ideal) (linRelu (V m c main_v12) (V m c main_v13)) := by
  rw [flushed2]
  unfold out0_2
  rw [View.canon_unit_zero zero_offsets]
  simp only [View.ld_unit_zero (S := S10000x128) zero_offsets, View.ld_unit_zero (S := S128x128) zero_offsets]
  exact block_eq (V m c main_v12) (V m c main_v13) t

/-- An index of the result array lies in point `t`'s block iff each coordinate lies in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v14).slice (win0_2.rect t)).set ↔ _
  rw [View.set_slice_whole, Rect.mem_set_unit]
  exact Iff.rfl

/-- Every index of the result array lies in some point's block: row `r` in row block `r / 10000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := every_row_block ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The result array after the launch is the rectified product of the two arrays the launch finds. -/
theorem final (c : Dev nD) :
    (dats m 0 c).arrAt 2 cfg0.N = linRelu (V m c main_v12) (V m c main_v13) :=
  (dats m 0 c).arrAt_eq_of_cover 2 (linRelu (V m c main_v12) (V m c main_v13)) (fun t _ => flushed_eq m c t) covered

/-- The kernel's run: it ends with the result array at that rectified product and the arguments unchanged. -/
theorem run : θ_run defs (onTc (τ := τ) (main (F := Ideal))) ⟨m, fun _ => 0, ρ⟩ fun r => ∀ c : Dev nD,
      r.2.mem ((c : Thread nD τ).loc main_v14) = linRelu (V m c main_v12) (V m c main_v13)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.LinRelu

end
-- ==== Proof.RefSide.lean ====
/-
  The reference, entry by entry.

  The reference multiplies the aggregated features AH (100000 × 128) by the transposed weights Wt (128 × 128) with one
  matrix product and takes the maximum with zero. At row r and column j this is max(Σ_k AH(r,k) · Wt(k,j), 0): the
  rectified product of the two arrays, whatever they hold.
-/
import proofs.«148129_j10625749090655_1_alg».proof.Proof.Gen.ReferenceIdeal.Read
import proofs.«148129_j10625749090655_1_alg».proof.Proof.Spec

noncomputable section

open scoped BigOperators

namespace Cert.LinRelu

open Idealize.ShloMosaic Idealize.ShloMosaic.ValueIdx Cert.ReferenceIdeal Cert.ReferenceIdeal.Read

/-- The reference's result is the rectified product of its aggregated features and its transposed weights. -/
theorem ref_eq (x0 : (⟨S100000x128, .f32⟩ : BufTy).Contents (Elt Ideal)) (x1 : (⟨S1600000, .f32⟩ : BufTy).Contents (Elt Ideal))
    (x2 : (⟨S128x128, .f32⟩ : BufTy).Contents (Elt Ideal)) (x3 x4 : (⟨S1600000, .i32⟩ : BufTy).Contents (Elt Ideal)) :
    val_main_v15 (F := Ideal) x0 x1 x2 x3 x4
      = linRelu (val_main_v12 (F := Ideal) x0 x1 x3 x4) (val_main_v13 (F := Ideal) x2) := by
  funext i
  rw [val_main_v15_apply, val_main_v14_apply, val_main_call0_v0_apply, val_main_call0_cst_apply]
  have el : ∀ k : Fin 128, lidx_main_v14 i k = ix2 (⟨(i 0).val, idx2_lt0 i⟩ : Fin 100000) k := fun k =>
    funext fun a => Fin.ext (by match a with | ⟨0, _⟩ => rfl | ⟨1, _⟩ => rfl)
  have er : ∀ k : Fin 128, ridx_main_v14 i k = ix2 k (⟨(i 1).val, idx2_lt1 i⟩ : Fin 128) := fun k =>
    funext fun a => Fin.ext (by match a with | ⟨0, _⟩ => rfl | ⟨1, _⟩ => rfl)
  simp only [el, er]
  exact congrArg (max _) Ideal.ofBits_zero_f32

end Cert.LinRelu

end
-- ==== Proof.Prefix.lean ====
/-
  The two arrays the kernel's launch finds, as functions of the arguments.

  Before its one launch the kernel's program gathers the feature rows named by the column indices, scales each by its
  edge value, adds the scaled rows into the rows named by the row indices (the aggregated features AH), and transposes
  the weight matrix (Wt). The reference performs the very same operations on the same arguments before its matrix
  product, so the launch's two operands are the reference's two intermediate arrays: the operations are never opened,
  only recognised as the same.
-/
import proofs.«148129_j10625749090655_1_alg».proof.Proof.Gen.KernelIdeal.Frame
import proofs.«148129_j10625749090655_1_alg».proof.Proof.Gen.ReferenceIdeal.Read

noncomputable section

namespace Cert.LinRelu

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The launch's right operand is the transposed weight matrix, as the reference forms it. -/
theorem V_weights (c : Dev nD) :
    (V m c main_v13 : S128x128.Idx → Elt Ideal .f32)
      = Cert.ReferenceIdeal.Read.val_main_v13 (F := Ideal) (m ((c : Thread nD τ).loc main_arg2)) := by
  dsimp only [V, hostOps0]
  after_results
  rfl

/-- The launch's left operand is the aggregated feature array, as the reference forms it. -/
theorem V_aggregated (c : Dev nD) :
    (V m c main_v12 : S100000x128.Idx → Elt Ideal .f32)
      = Cert.ReferenceIdeal.Read.val_main_v12 (F := Ideal) (m ((c : Thread nD τ).loc main_arg0))
          (m ((c : Thread nD τ).loc main_arg1)) (m ((c : Thread nD τ).loc main_arg3)) (m ((c : Thread nD τ).loc main_arg4)) := by
  dsimp only [V, hostOps0]
  after_results
  rfl

end Cert.LinRelu

end
-- ==== Proof.lean ====
/-
  The kernel and its reference compute the same array.

  Both programs first build, with the same host operations on the same arguments, the aggregated features AH (each
  edge's feature row scaled by the edge value and added into the edge's target row) and the transposed weights Wt.
  The reference then forms relu(AH · Wt) with one matrix product. The kernel streams AH through ten blocks of 10000
  rows, multiplies each by Wt into a zero accumulator and rectifies; the blocks tile the rows, so its result is the
  same rectified product, entry by entry, on the extended reals. No entry needs to be finite: the two sides form the
  same products and add them over the same 128 positions. Rounding the operands to a narrower format before the
  product is the identity on the extended reals, and the idealized kernel is the kernel's own text, so there is
  nothing to preserve beyond that.
-/
import proofs.«148129_j10625749090655_1_alg».proof.Defs
import proofs.«148129_j10625749090655_1_alg».proof.Proof.Gen.Kernel
import proofs.«148129_j10625749090655_1_alg».proof.Proof.Gen.Kernel.Skeleton
import proofs.«148129_j10625749090655_1_alg».proof.Proof.Gen.Kernel.Launch
import proofs.«148129_j10625749090655_1_alg».proof.Proof.Gen.Kernel.Points
import proofs.«148129_j10625749090655_1_alg».proof.Proof.Gen.Kernel.Frame
import proofs.«148129_j10625749090655_1_alg».proof.Proof.Gen.KernelIdeal
import proofs.«148129_j10625749090655_1_alg».proof.Proof.Gen.KernelIdeal.Skeleton
import proofs.«148129_j10625749090655_1_alg».proof.Proof.Gen.KernelIdeal.Launch
import proofs.«148129_j10625749090655_1_alg».proof.Proof.Gen.KernelIdeal.Points
import proofs.«148129_j10625749090655_1_alg».proof.Proof.Gen.KernelIdeal.Frame
import proofs.«148129_j10625749090655_1_alg».proof.Proof.Gen.ReferenceIdeal
import proofs.«148129_j10625749090655_1_alg».proof.Proof.Gen.Pre_finite_inputs
import proofs.«148129_j10625749090655_1_alg».proof.Proof.Gen.KernelIdeal.Value
import proofs.«148129_j10625749090655_1_alg».proof.Proof.Gen.ReferenceIdeal.Run
import proofs.«148129_j10625749090655_1_alg».proof.Proof.Gen.ReferenceIdeal.Read
import proofs.«148129_j10625749090655_1_alg».proof.Proof.KernelSide
import proofs.«148129_j10625749090655_1_alg».proof.Proof.RefSide
import proofs.«148129_j10625749090655_1_alg».proof.Proof.Prefix
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the rectified product of the two arrays its launch
    finds, the reference's at the rectified product of its two intermediate arrays, and those arrays are the same
    functions of the arguments. -/
theorem algebraic : Cert.algebraic_KernelIdeal_ReferenceIdeal := by
  intro m ρ m' ρ' _ hagree
  refine ⟨_, Cert.LinRelu.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.LinRelu.ref_eq, (hagree c).1, (hagree c).2.1, (hagree c).2.2.1,
    (hagree c).2.2.2.1, (hagree c).2.2.2.2, Cert.LinRelu.V_aggregated, Cert.LinRelu.V_weights]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
